-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S4000x128 : Shape := ⟨2, ![4000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x1 : Shape := ⟨2, ![4000, 1]⟩

abbrev nBuf : Space → Nat
  | .hbm => 125
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .bf16⟩
  | .hbm, ⟨12, _⟩ => ⟨S128x128, .bf16⟩
  | .hbm, ⟨13, _⟩ => ⟨S100000x128, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000, .f32⟩
  | .hbm, ⟨66, _⟩ => ⟨S100000x1, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .i1⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000, .f32⟩
  | .hbm, ⟨94, _⟩ => ⟨S1600000, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000, .f32⟩
  | .hbm, ⟨104, _⟩ => ⟨S1600000, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x128, .f32⟩
  | .hbm, ⟨114, _⟩ => ⟨S1600000x1, .f32⟩
  | .hbm, ⟨115, _⟩ => ⟨S1600000x128, .f32⟩
  | .hbm, ⟨116, _⟩ => ⟨S1600000x128, .f32⟩
  | .hbm, ⟨117, _⟩ => ⟨S_, .f32⟩
  | .hbm, ⟨118, _⟩ => ⟨S100000x128, .f32⟩
  | .hbm, ⟨119, _⟩ => ⟨S1600000x1, .i32⟩
  | .hbm, ⟨120, _⟩ => ⟨S100000x128, .f32⟩
  | .hbm, ⟨121, _⟩ => ⟨S100000, .f32⟩
  | .hbm, ⟨122, _⟩ => ⟨S100000x1, .f32⟩
  | .hbm, ⟨123, _⟩ => ⟨S1x128, .f32⟩
  | .hbm, ⟨124, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .bf16⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S4000x128_S128x128_S4000x128_1_0_0_1_n_n_wf : DotDims.WF S4000x128 S128x128 S4000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel's run, with its result named.  @main is eleven segments: stretches of host operations and
  four pipelined regions.  Every weakly fair execution ends with each unscoped buffer at the last boundary's
  contents (the fold `Gen.W11` of the segments over the launch memory); read at the result buffer this names the
  result, and read at an argument it walks back to the launch memory.
-/
import proofs.«102375_j52201032515658_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Result

end
-- ==== Proof.Spec.lean ====
/-
  The mathematics both programs compute: a two-layer graph convolution on 100000 nodes with 128 features and
  1600000 weighted directed edges (source `row e`, target `col e`, weight `ew e`), each layer

      h      = x · W                                   (a dense product, 128 terms per entry)
      deg n  = 1 + Σ_{e : col e = n} ew e              (a scatter-add of the weights, plus the self loop)
      dinv n = if deg n > 0 then deg n ^ (-1/2) else 0
      c e    = dinv (row e) · ew e · dinv (col e)      (two gathers)
      agg n  = Σ_{e : col e = n} c e · h (row e)       (a row gather, a scale, a scatter-add of rows)
      out n  = (agg n + dinv n ² · h n) + b            (the self loop and the bias)

  with `max · 0` between the layers. The dense product and the last line are what the two programs arrange
  differently (row blocks of 4000 nodes against whole arrays; where the column and row broadcasts sit); the
  edge-indexed part in between is the same composition of the same host operations in both, and is carried
  here as opaque functions of `h`, the two index vectors and the weights: nothing below ever opens a gather
  or a scatter.
-/
import proofs.«102375_j52201032515658_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

-- the printed program's stated side conditions (well-formedness of its broadcasts, casts and dimension records)
variable [Facts₀]
open Facts₀

section Chain
variable {F : FTy → Type} [FloatOps F]

/-- Row 0 of the edge table as a vector: the edges' source nodes. -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge table as a vector: the edges' target nodes. -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A node-number vector as a gather's index table: a negative number counts from the end (100000 is added). -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The weighted in-degree with the self loop: 1 + the sum of the weights of the edges arriving at a node. -/
def degOf (col : (⟨S1600000, .i32⟩ : BufTy).Contents (Elt F)) (ew : (⟨S1600000, .f32⟩ : BufTy).Contents (Elt F)) :
    (⟨S100000, .f32⟩ : BufTy).Contents (Elt F) :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 col) ew)
    (broadcastInDim S100000 ![] bcast_S_S100000 (constant S_ .f32 0x3F800000#32))

/-- `deg ^ (-1/2)` where the degree is positive, 0 elsewhere. -/
def dinvOf (col : (⟨S1600000, .i32⟩ : BufTy).Contents (Elt F)) (ew : (⟨S1600000, .f32⟩ : BufTy).Contents (Elt F)) :
    (⟨S100000, .f32⟩ : BufTy).Contents (Elt F) :=
  select (cmpf .ogt (degOf col ew) (broadcastInDim S100000 ![] bcast_S_S100000 (constant S_ .f32 0x00000000#32)))
    (Host.rsqrt (degOf col ew))
    (broadcastInDim S100000 ![] bcast_S_S100000 (id (constant S_ .f32 0x00000000#32)))

/-- The coefficient of an edge: `dinv (row e) · ew e · dinv (col e)`. -/
def edgeCoef (row col : (⟨S1600000, .i32⟩ : BufTy).Contents (Elt F)) (ew : (⟨S1600000, .f32⟩ : BufTy).Contents (Elt F)) :
    (⟨S1600000, .f32⟩ : BufTy).Contents (Elt F) :=
  mulf (mulf (Host.gather gather_S100000_S1600000x1_S1600000_n_0_n_n_0_1_1 (dinvOf col ew) (wrapIdx row)) ew)
    (Host.gather gather_S100000_S1600000x1_S1600000_n_0_n_n_0_1_1 (dinvOf col ew) (wrapIdx col))

/-- The aggregation over the edges: at node `n`, the sum over the edges arriving at `n` of the edge's coefficient
    times the source node's row of `h`. -/
def aggOf (h : (⟨S100000x128, .f32⟩ : BufTy).Contents (Elt F)) (row col : (⟨S1600000, .i32⟩ : BufTy).Contents (Elt F))
    (ew : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 col)
    (mulf (broadcastInDim S1600000x128 ![0, 1] bcast_S1600000x1_S1600000x128_0_1
        (broadcastInDim S1600000x1 ![0] bcast_S1600000_S1600000x1_0 (edgeCoef row col ew)))
      (Host.gather gather_S100000x128_S1600000x1_S1600000x128_1_0_n_n_0_1_1128 h (wrapIdx row)))

/-- The self loop's coefficient, `dinv n ²`, as a column. -/
def selfOf (col : (⟨S1600000, .i32⟩ : BufTy).Contents (Elt F)) (ew : (⟨S1600000, .f32⟩ : BufTy).Contents (Elt F)) :
    (⟨S100000x1, .f32⟩ : BufTy).Contents (Elt F) :=
  broadcastInDim S100000x1 ![0] bcast_S100000_S100000x1_0 (mulf (dinvOf col ew) (dinvOf col ew))

end Chain

/-! ## The dense parts, entry by entry, on the extended reals -/

/-- `x · W`: entry `(n, j)` is the sum over `k` of `x (n, k) · W (k, j)`. -/
def mm (x : FVec Ideal S100000x128 .f32) (w : FVec Ideal S128x128 .f32) : FVec Ideal S100000x128 .f32 :=
  fun i => ∑ k : Fin 128, x (ix2 (i 0) k) * w (ix2 k (i 1))

/-- `(agg + sc · h) + b`, the column `sc` spread along a row and the bias `b` down a column. -/
def combine (agg h : FVec Ideal S100000x128 .f32) (sc : FVec Ideal S100000x1 .f32) (b : FVec Ideal S128 .f32) :
    FVec Ideal S100000x128 .f32 :=
  fun i => agg i + sc (ix2 (i 0) (0 : Fin 1)) * h i + b (ix1 (i 1))

/-- `max · 0`, entry by entry. -/
def relu (v : FVec Ideal S100000x128 .f32) : FVec Ideal S100000x128 .f32 :=
  fun i => max (v i) (Ideal.ofBits .f32 0x00000000#32)

/-- One layer before its activation, from the node features, the weights and bias, the edges and their weights. -/
def layer (x : FVec Ideal S100000x128 .f32) (w : FVec Ideal S128x128 .f32) (b : FVec Ideal S128 .f32)
    (ei : (⟨S2x1600000, .i32⟩ : BufTy).Contents (Elt Ideal)) (ew : FVec Ideal S1600000 .f32) : FVec Ideal S100000x128 .f32 :=
  combine (aggOf (F := Ideal) (mm x w) (srcIdx ei) (dstIdx ei) ew) (mm x w) (selfOf (F := Ideal) (dstIdx ei) ew) b

/-- The whole network: two layers, `max · 0` between them. -/
def gcn (x : FVec Ideal S100000x128 .f32) (ei : (⟨S2x1600000, .i32⟩ : BufTy).Contents (Elt Ideal)) (ew : FVec Ideal S1600000 .f32)
    (w1 : FVec Ideal S128x128 .f32) (b1 : FVec Ideal S128 .f32) (w2 : FVec Ideal S128x128 .f32) (b2 : FVec Ideal S128 .f32) :
    FVec Ideal S100000x128 .f32 :=
  layer (relu (layer x w1 b1 ei ew)) w2 b2 ei ew

end Cert.Gcn

end
-- ==== Proof.KHost.lean ====
/-
  The host operations between the regions, read.  Each boundary's contents are a fold of the stretch's operations
  over the previous boundary's; read at one buffer the fold is the composition of the operations on the path to it.
  The edge-indexed part (degrees, edge coefficients, the gathered and scattered rows) is read as the specification's
  opaque chain of the dense product `h`, the two index vectors and the weights: no gather or scatter is opened.
-/
import proofs.«102375_j52201032515658_1_alg».proof.Proof.Gen.KernelIdeal.Frame
import proofs.«102375_j52201032515658_1_alg».proof.Proof.Spec
import Idealize.ShloMosaic.Lib.StableHlo.Run

set_option maxRecDepth 16384

noncomputable section

namespace Cert.KernelIdeal.Host

open Cert.KernelIdeal Cert.KernelIdeal.Gen Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Contents carried to a buffer's own type and back are unchanged (the outlined `where` passes its operands through
    typed references). -/
theorem ofBuf_toBuf {T : BufTy} (x : StableHlo.TRef sig T) (v : T.Contents (Elt F)) : x.ofBuf (x.toBuf v) = v := by
  obtain ⟨r, rfl, _, _⟩ := x; rfl

/-! ## Before region 0: the two index vectors and the two weight matrices -/

theorem src_at_W1 : W1 m ρ c (Proc.devRef .tc main_v1) = srcIdx (m ((c : Thread nD τ).loc main_arg1)) := by
  show StableHlo.after hostOps0 (W0 m ρ c) (Proc.devRef .tc main_v1) = _
  after_results_simp <;> rfl

theorem dst_at_W1 : W1 m ρ c (Proc.devRef .tc main_v3) = dstIdx (m ((c : Thread nD τ).loc main_arg1)) := by
  show StableHlo.after hostOps0 (W0 m ρ c) (Proc.devRef .tc main_v3) = _
  after_results_simp <;> rfl

theorem w1_at_W1 : W1 m ρ c (Proc.devRef .tc main_v4) = truncf .bf16 (m ((c : Thread nD τ).loc main_arg3)) Facts₀.bitsLt_bf16_f32 := by
  show StableHlo.after hostOps0 (W0 m ρ c) (Proc.devRef .tc main_v4) = _
  after_results_simp <;> rfl

theorem w2_at_W1 : W1 m ρ c (Proc.devRef .tc main_v5) = truncf .bf16 (m ((c : Thread nD τ).loc main_arg5)) Facts₀.bitsLt_bf16_f32 := by
  show StableHlo.after hostOps0 (W0 m ρ c) (Proc.devRef .tc main_v5) = _
  after_results_simp <;> rfl

theorem x_at_W1 : W1 m ρ c (Proc.devRef .tc main_arg0) = m ((c : Thread nD τ).loc main_arg0) := by
  show StableHlo.after hostOps0 (W0 m ρ c) (Proc.devRef .tc main_arg0) = _
  after_results_simp <;> rfl

theorem ew_at_W1 : W1 m ρ c (Proc.devRef .tc main_arg2) = m ((c : Thread nD τ).loc main_arg2) := by
  show StableHlo.after hostOps0 (W0 m ρ c) (Proc.devRef .tc main_arg2) = _
  after_results_simp <;> rfl

theorem b1_at_W1 : W1 m ρ c (Proc.devRef .tc main_arg4) = m ((c : Thread nD τ).loc main_arg4) := by
  show StableHlo.after hostOps0 (W0 m ρ c) (Proc.devRef .tc main_arg4) = _
  after_results_simp <;> rfl

theorem b2_at_W1 : W1 m ρ c (Proc.devRef .tc main_arg6) = m ((c : Thread nD τ).loc main_arg6) := by
  show StableHlo.after hostOps0 (W0 m ρ c) (Proc.devRef .tc main_arg6) = _
  after_results_simp <;> rfl

/-! ## Between region 0 and region 1 -/

set_option maxHeartbeats 4000000 in
theorem bias_at_W5 : W5 m ρ c (Proc.devRef .tc main_v47) = shapeCast _ (W2 m ρ c (Proc.devRef .tc main_arg4)) Facts₀.shapeCasts_S128_S1x128 := by
  show StableHlo.after hostOps1_2 (StableHlo.after hostOps1_1 (StableHlo.after hostOps1 (W2 m ρ c))) (Proc.devRef .tc main_v47) = _
  after_results_simp <;> rfl

set_option maxHeartbeats 4000000 in
theorem self_at_W5 : W5 m ρ c (Proc.devRef .tc main_v46) = selfOf (W2 m ρ c (Proc.devRef .tc main_v3)) (W2 m ρ c (Proc.devRef .tc main_arg2)) := by
  show StableHlo.after hostOps1_2 (StableHlo.after hostOps1_1 (StableHlo.after hostOps1 (W2 m ρ c))) (Proc.devRef .tc main_v46) = _
  after_results_simp
  simp only [ofBuf_toBuf]
  rfl

set_option maxHeartbeats 8000000 in
theorem agg_at_W5 : W5 m ρ c (Proc.devRef .tc main_v44)
    = aggOf (W2 m ρ c (Proc.devRef .tc main_v6)) (W2 m ρ c (Proc.devRef .tc main_v1)) (W2 m ρ c (Proc.devRef .tc main_v3)) (W2 m ρ c (Proc.devRef .tc main_arg2)) := by
  show StableHlo.after hostOps1_2 (StableHlo.after hostOps1_1 (StableHlo.after hostOps1 (W2 m ρ c))) (Proc.devRef .tc main_v44) = _
  after_results_simp
  simp only [ofBuf_toBuf]
  rfl

set_option maxHeartbeats 4000000 in
theorem h_at_W5 : W5 m ρ c (Proc.devRef .tc main_v6) = W2 m ρ c (Proc.devRef .tc main_v6) := by
  show StableHlo.after hostOps1_2 (StableHlo.after hostOps1_1 (StableHlo.after hostOps1 (W2 m ρ c))) (Proc.devRef .tc main_v6) = _
  after_results_simp <;> rfl

set_option maxHeartbeats 4000000 in
theorem src_at_W5 : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results_simp <;> rfl

set_option maxHeartbeats 4000000 in
theorem dst_at_W5 : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results_simp <;> rfl

set_option maxHeartbeats 4000000 in
theorem ew_at_W5 : W5 m ρ c (Proc.devRef .tc main_arg2) = W2 m ρ c (Proc.devRef .tc main_arg2) := by
  show StableHlo.after hostOps1_2 (StableHlo.after hostOps1_1 (StableHlo.after hostOps1 (W2 m ρ c))) (Proc.devRef .tc main_arg2) = _
  after_results_simp <;> rfl

set_option maxHeartbeats 4000000 in
theorem w2_at_W5 : W5 m ρ c (Proc.devRef .tc main_v5) = W2 m ρ c (Proc.devRef .tc main_v5) := by
  show StableHlo.after hostOps1_2 (StableHlo.after hostOps1_1 (StableHlo.after hostOps1 (W2 m ρ c))) (Proc.devRef .tc main_v5) = _
  after_results_simp <;> rfl

set_option maxHeartbeats 4000000 in
theorem b2_at_W5 : W5 m ρ c (Proc.devRef .tc main_arg6) = W2 m ρ c (Proc.devRef .tc main_arg6) := by
  show StableHlo.after hostOps1_2 (StableHlo.after hostOps1_1 (StableHlo.after hostOps1 (W2 m ρ c))) (Proc.devRef .tc main_arg6) = _
  after_results_simp <;> rfl

/-! ## Between region 2 and region 3 -/

set_option maxHeartbeats 4000000 in
theorem bias_at_W10 : W10 m ρ c (Proc.devRef .tc main_v90) = shapeCast _ (W7 m ρ c (Proc.devRef .tc main_arg6)) Facts₀.shapeCasts_S128_S1x128 := by
  show StableHlo.after hostOps3_2 (StableHlo.after hostOps3_1 (StableHlo.after hostOps3 (W7 m ρ c))) (Proc.devRef .tc main_v90) = _
  after_results_simp <;> rfl

set_option maxHeartbeats 4000000 in
theorem self_at_W10 : W10 m ρ c (Proc.devRef .tc main_v89) = selfOf (W7 m ρ c (Proc.devRef .tc main_v3)) (W7 m ρ c (Proc.devRef .tc main_arg2)) := by
  show StableHlo.after hostOps3_2 (StableHlo.after hostOps3_1 (StableHlo.after hostOps3 (W7 m ρ c))) (Proc.devRef .tc main_v89) = _
  after_results_simp
  simp only [ofBuf_toBuf]
  rfl

set_option maxHeartbeats 8000000 in
theorem agg_at_W10 : W10 m ρ c (Proc.devRef .tc main_v87)
    = aggOf (W7 m ρ c (Proc.devRef .tc main_v49)) (W7 m ρ c (Proc.devRef .tc main_v1)) (W7 m ρ c (Proc.devRef .tc main_v3)) (W7 m ρ c (Proc.devRef .tc main_arg2)) := by
  show StableHlo.after hostOps3_2 (StableHlo.after hostOps3_1 (StableHlo.after hostOps3 (W7 m ρ c))) (Proc.devRef .tc main_v87) = _
  after_results_simp
  simp only [ofBuf_toBuf]
  rfl

set_option maxHeartbeats 4000000 in
theorem h_at_W10 : W10 m ρ c (Proc.devRef .tc main_v49) = W7 m ρ c (Proc.devRef .tc main_v49) := by
  show StableHlo.after hostOps3_2 (StableHlo.after hostOps3_1 (StableHlo.after hostOps3 (W7 m ρ c))) (Proc.devRef .tc main_v49) = _
  after_results_simp <;> rfl

/-! ## A buffer no region writes is, at the region's exit, what it was at its entry -/

theorem src_at_W2 : W2 m ρ c (Proc.devRef .tc main_v1) = srcIdx (m ((c : Thread nD τ).loc main_arg1)) :=
  (W2_of_ne m ρ c main_v1 (by decide)).trans (src_at_W1 m ρ c)
theorem dst_at_W2 : W2 m ρ c (Proc.devRef .tc main_v3) = dstIdx (m ((c : Thread nD τ).loc main_arg1)) :=
  (W2_of_ne m ρ c main_v3 (by decide)).trans (dst_at_W1 m ρ c)
theorem ew_at_W2 : W2 m ρ c (Proc.devRef .tc main_arg2) = m ((c : Thread nD τ).loc main_arg2) :=
  (W2_of_ne m ρ c main_arg2 (by decide)).trans (ew_at_W1 m ρ c)
theorem b1_at_W2 : W2 m ρ c (Proc.devRef .tc main_arg4) = m ((c : Thread nD τ).loc main_arg4) :=
  (W2_of_ne m ρ c main_arg4 (by decide)).trans (b1_at_W1 m ρ c)
theorem b2_at_W2 : W2 m ρ c (Proc.devRef .tc main_arg6) = m ((c : Thread nD τ).loc main_arg6) :=
  (W2_of_ne m ρ c main_arg6 (by decide)).trans (b2_at_W1 m ρ c)
theorem w2_at_W2 : W2 m ρ c (Proc.devRef .tc main_v5) = truncf .bf16 (m ((c : Thread nD τ).loc main_arg5)) Facts₀.bitsLt_bf16_f32 :=
  (W2_of_ne m ρ c main_v5 (by decide)).trans (w2_at_W1 m ρ c)

theorem src_at_W7 : W7 m ρ c (Proc.devRef .tc main_v1) = srcIdx (m ((c : Thread nD τ).loc main_arg1)) :=
  (W7_of_ne m ρ c main_v1 (by decide)).trans ((W6_of_ne m ρ c main_v1 (by decide)).trans ((src_at_W5 m ρ c).trans (src_at_W2 m ρ c)))
theorem dst_at_W7 : W7 m ρ c (Proc.devRef .tc main_v3) = dstIdx (m ((c : Thread nD τ).loc main_arg1)) :=
  (W7_of_ne m ρ c main_v3 (by decide)).trans ((W6_of_ne m ρ c main_v3 (by decide)).trans ((dst_at_W5 m ρ c).trans (dst_at_W2 m ρ c)))
theorem ew_at_W7 : W7 m ρ c (Proc.devRef .tc main_arg2) = m ((c : Thread nD τ).loc main_arg2) :=
  (W7_of_ne m ρ c main_arg2 (by decide)).trans ((W6_of_ne m ρ c main_arg2 (by decide)).trans ((ew_at_W5 m ρ c).trans (ew_at_W2 m ρ c)))
theorem b2_at_W7 : W7 m ρ c (Proc.devRef .tc main_arg6) = m ((c : Thread nD τ).loc main_arg6) :=
  (W7_of_ne m ρ c main_arg6 (by decide)).trans ((W6_of_ne m ρ c main_arg6 (by decide)).trans ((b2_at_W5 m ρ c).trans (b2_at_W2 m ρ c)))
theorem w2_at_W6 : W6 m ρ c (Proc.devRef .tc main_v5) = truncf .bf16 (m ((c : Thread nD τ).loc main_arg5)) Facts₀.bitsLt_bf16_f32 :=
  (W6_of_ne m ρ c main_v5 (by decide)).trans ((w2_at_W5 m ρ c).trans (w2_at_W2 m ρ c))

end Cert.KernelIdeal.Host

end
-- ==== Proof.KValue.lean ====
/-
  The idealized kernel's result is the network of the specification.  Region by region: the first dense product is
  `x · W₁` (the rounding of both operands to bf16 is the identity on the extended reals); the stretch of host
  operations after it forms the aggregation, the self-loop column and the bias row from it; the first combine
  region adds them and applies `max · 0`; the second dense product, stretch and combine region do the same from
  that activation with `W₂`, `b₂` and no activation.  A buffer that no later operation or region writes is read
  where it was written.
-/
import proofs.«102375_j52201032515658_1_alg».proof.Proof.KHost
import Idealize.ShloMosaic.Lib.ValueLayout

set_option maxRecDepth 16384

noncomputable section

namespace Cert.KernelIdeal.Value

open Cert.KernelIdeal Cert.KernelIdeal.Gen Cert.KernelIdeal.Host Cert.Gcn
open Idealize.ShloMosaic Idealize.ShloMosaic.TcCoe Idealize.SL.Sem Idealize.ShloMosaic.ValueIdx

/-- The TensorCore's buffer contents at a region's entry. -/
abbrev Entry := (c : Dev nD) → (b : Ref sig .tc) → Buf (Elt Ideal) ((c : Thread nD τ).loc b)

variable (m : (ℓ : Loc nD τ sig) → Buf (Elt Ideal) ℓ) (ρ : Dev nD → PrngReg) (c : Dev nD)

/-- A bias vector reshaped to one row, read along that row, is the vector. -/
theorem bias_row (b : FVec Ideal S128 .f32) :
    (fun j : S128.Idx => shapeCast S1x128 b Facts₀.shapeCasts_S128_S1x128 (ix2 (0 : Fin 1) (j 0))) = b := by
  funext j
  exact (shapeCast_a_1a_apply (a := 128) b Facts₀.shapeCasts_S128_S1x128 (0 : Fin 1) (j 0)).trans (congrArg b (eq_ix1 j).symm)

/-- Rounding a matrix to bf16 does not change the dense product on the extended reals. -/
theorem mm_truncf (x : FVec Ideal S100000x128 .f32) (w : FVec Ideal S128x128 .f32) :
    mm x (truncf .bf16 w Facts₀.bitsLt_bf16_f32) = mm x w := rfl

section
variable
  (dense0 : ∀ (V : Entry) (c : Dev nD), (dat0 V c).arrAt 2 cfg0.N = mm (V c main_arg0) (V c main_v4))
  (comb1 : ∀ (V : Entry) (c : Dev nD), (dat1 V c).arrAt 4 cfg1.N
      = relu (combine (V c main_v44) (V c main_v6) (V c main_v46) (fun j => V c main_v47 (ix2 (0 : Fin 1) (j 0)))))
  (dense2 : ∀ (V : Entry) (c : Dev nD), (dat2 V c).arrAt 2 cfg2.N = mm (V c main_v48) (V c main_v5))
  (comb3 : ∀ (V : Entry) (c : Dev nD), (dat3 V c).arrAt 4 cfg3.N
      = combine (V c main_v87) (V c main_v49) (V c main_v89) (fun j => V c main_v90 (ix2 (0 : Fin 1) (j 0))))

include dense0 in
/-- After region 0 its output array holds `x · W₁`. -/
theorem h1_eq : W2 m ρ c (Proc.devRef .tc main_v6) = mm (m ((c : Thread nD τ).loc main_arg0)) (m ((c : Thread nD τ).loc main_arg3)) := by
  refine (W2_arr m ρ c 2).trans ((dense0 (V1 m ρ) c).trans ?_)
  show mm (W1 m ρ c (Proc.devRef .tc main_arg0)) (W1 m ρ c (Proc.devRef .tc main_v4)) = _
  rw [x_at_W1, w1_at_W1]
  exact mm_truncf _ _

include dense0 comb1 in
/-- After region 1 its output array holds the first layer's activation. -/
theorem act_eq : W6 m ρ c (Proc.devRef .tc main_v48)
    = relu (layer (m ((c : Thread nD τ).loc main_arg0)) (m ((c : Thread nD τ).loc main_arg3)) (m ((c : Thread nD τ).loc main_arg4)) (m ((c : Thread nD τ).loc main_arg1)) (m ((c : Thread nD τ).loc main_arg2))) := by
  refine (W6_arr m ρ c 4).trans ((comb1 (V5 m ρ) c).trans ?_)
  show relu (combine (W5 m ρ c (Proc.devRef .tc main_v44)) (W5 m ρ c (Proc.devRef .tc main_v6)) (W5 m ρ c (Proc.devRef .tc main_v46))
      (fun j => W5 m ρ c (Proc.devRef .tc main_v47) (ix2 (0 : Fin 1) (j 0)))) = _
  rw [agg_at_W5, h_at_W5, self_at_W5, bias_at_W5, h1_eq m ρ c dense0, src_at_W2, dst_at_W2, ew_at_W2, b1_at_W2, bias_row]
  rfl

include dense0 comb1 dense2 in
/-- After region 2 its output array holds the activation times `W₂`. -/
theorem h2_eq : W7 m ρ c (Proc.devRef .tc main_v49)
    = mm (relu (layer (m ((c : Thread nD τ).loc main_arg0)) (m ((c : Thread nD τ).loc main_arg3)) (m ((c : Thread nD τ).loc main_arg4)) (m ((c : Thread nD τ).loc main_arg1)) (m ((c : Thread nD τ).loc main_arg2)))) (m ((c : Thread nD τ).loc main_arg5)) := by
  refine (W7_arr m ρ c 2).trans ((dense2 (V6 m ρ) c).trans ?_)
  show mm (W6 m ρ c (Proc.devRef .tc main_v48)) (W6 m ρ c (Proc.devRef .tc main_v5)) = _
  rw [act_eq m ρ c dense0 comb1, w2_at_W6]
  exact mm_truncf _ _

include dense0 comb1 dense2 comb3 in
/-- The result buffer at the last boundary holds the network of the specification. -/
theorem result_of : W11 m ρ c (Proc.devRef .tc main_v91)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 4).trans ((comb3 (V10 m ρ) c).trans ?_)
  show combine (W10 m ρ c (Proc.devRef .tc main_v87)) (W10 m ρ c (Proc.devRef .tc main_v49)) (W10 m ρ c (Proc.devRef .tc main_v89))
      (fun j => W10 m ρ c (Proc.devRef .tc main_v90) (ix2 (0 : Fin 1) (j 0))) = _
  rw [agg_at_W10, h_at_W10, self_at_W10, bias_at_W10, h2_eq m ρ c dense0 comb1 dense2, src_at_W7, dst_at_W7, ew_at_W7, b2_at_W7, bias_row]
  rfl

end

end Cert.KernelIdeal.Value

end
-- ==== Proof.KDense.lean ====
/-
  The two dense regions of the idealized kernel as whole-array functions. Each is a grid of 25 points; point `t`
  multiplies rows [4000 t, 4000 t + 4000) of its left array by the whole 128 × 128 weights into a zero accumulator
  and writes the block back. Read entry by entry the array it leaves is the matrix product: entry (n, j) is the
  sum over k of x (n, k) · w (k, j). First the block product at an entry, then the blocks put together: what a
  point writes back is its block of the product, and the 25 blocks cover the array.
-/
import proofs.«102375_j52201032515658_1_alg».proof.Proof.Gen.KernelIdeal.Frame
import proofs.«102375_j52201032515658_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx (ix1 ix2)

/-! ## The dense block product at an entry -/

/-- The product's left operand is read on its row axis at the entry's row, -/
theorem dense_dot_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- and on its column axis at the summation index; -/
theorem dense_dot_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand on its row axis at the summation index, -/
theorem dense_dot_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- and on its column axis at the entry's column. -/
theorem dense_dot_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into a zero accumulator, read at entry `(r, j)`: the sum over `k` of the left block at `(r, k)`
    times the right block at `(k, j)`. -/
theorem dense_matmul_zero_apply (a : FVec Ideal S4000x128 .bf16) (b : FVec Ideal S128x128 .bf16) (r : Fin 4000) (j : Fin 128) :
    FloatOps.matmul dot_S4000x128_S128x128_S4000x128_1_0_0_1_n_n none a b (constant S4000x128 .f32 0x00000000#32) (ix2 r j)
      = ∑ k : Fin 128, a (ix2 r k) * b (ix2 k j) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k := funext fun a => Fin.ext (by
    match a with
    | ⟨0, _⟩ => exact dense_dot_lhs_row _ _
    | ⟨1, _⟩ => exact (dense_dot_lhs_col _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j := funext fun a => Fin.ext (by
    match a with
    | ⟨0, _⟩ => exact (dense_dot_rhs_row _ _).trans hk
    | ⟨1, _⟩ => exact dense_dot_rhs_col _ _)
  rw [el, er]

/-- Region 0's payload at an entry: the rounding to bf16 is the identity on the extended reals, the cast of the
    weights keeps their shape. -/
theorem dense_pay0_apply (x0 : Vec Ideal S4000x128 .f32) (x1 : Vec Ideal S128x128 .bf16) (r : Fin 4000) (j : Fin 128) :
    k0_pay1 x0 x1 (ix2 r j) = ∑ k : Fin 128, x0 (ix2 r k) * x1 (ix2 k j) := by
  unfold k0_pay1
  simp only [matmul]
  rw [shapeCast_self]
  exact dense_matmul_zero_apply _ _ r j

/-- Region 2's payload at an entry: the same product, its left block first cast to its own shape. -/
theorem dense_pay2_apply (x0 : Vec Ideal S4000x128 .f32) (x1 : Vec Ideal S128x128 .bf16) (r : Fin 4000) (j : Fin 128) :
    k2_pay1 x0 x1 (ix2 r j) = ∑ k : Fin 128, x0 (ix2 r k) * x1 (ix2 k j) := by
  unfold k2_pay1
  simp only [matmul]
  rw [shapeCast_self, shapeCast_self]
  exact dense_matmul_zero_apply _ _ r j

/-- A sum of products read along row `i 0` of `X` and column `i 1` of `W` is the product's entry `i`. -/
theorem dense_mm_of_reads (X : FVec Ideal S100000x128 .f32) (W : FVec Ideal S128x128 .f32) (i : S100000x128.Idx)
    (f : Fin 128 → S100000x128.Idx) (g : Fin 128 → S128x128.Idx)
    (hf : ∀ k, f k = ix2 (i 0) k) (hg : ∀ k, g k = ix2 k (i 1)) :
    ∑ k : Fin 128, X (f k) * W (g k) = Cert.Gcn.mm X W i := by
  unfold Cert.Gcn.mm
  exact Finset.sum_congr rfl fun k _ => by rw [hf k, hg k]; rfl

/-- The zero offsets of a whole-buffer access, however spelt. -/
theorem dense_zeros : (![0, 0] : Fin 2 → Nat) = fun _ => 0 := funext fun a => by fin_cases a <;> rfl

variable (V : (c : Dev nD) → (b : Ref sig .tc) → Buf (Elt Ideal) ((c : Thread nD τ).loc b))

/-! ## Region 0: the blocks as one array -/

/-- The printed index maps over the grid: the row-block windows sit at block `t` on the row axis and block 0 on
    the lane axis, the weights' window at block 0 on both. -/
theorem dense_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What point `t` writes back is block `t` of the product of the whole arrays: row `p` of the block is row
    `4000 t + p` of the array, and the weights' block is the whole of the weights. -/
theorem dense_flushed0 (c : Dev nD) (t : Fin cfg0.N) :
    (dat0 V c).flushed 2 t = ((cfg0.win 2).blk t).view.read (Elt Ideal) (Cert.Gcn.mm (V c main_arg0) (V c main_v4)) := by
  show (cfg0.win 2).cut (grid0.coords t) ((dat0 V c).after 2 t) = _
  rw [after0_2]
  unfold out0_2
  rw [View.canon_unit_zero dense_zeros]
  simp only [View.ld_unit_zero (S := S4000x128) dense_zeros, View.ld_unit_zero (S := S128x128) dense_zeros]
  obtain ⟨e0, e1, e2, e3, e4, e5⟩ := dense_idx0 t
  funext y
  obtain ⟨p, q, rfl⟩ : ∃ (p : Fin 4000) (q : Fin 128), y = ix2 p q := ⟨y 0, y 1, ValueIdx.eq_ix2 y⟩
  refine (dense_pay0_apply (iblk0 V c 0 t) (iblk0 V c 1 t) p q).trans ?_
  have h0 : ∀ k : Fin 128, ((cfg0.win 0).blk t).view.emb (ix2 p k) = ix2 ((((cfg0.win 2).blk t).view.emb (ix2 p q)) 0) k := by
    intro k; funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 2).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact dense_mm_of_reads (V c main_arg0) (V c main_v4) (((cfg0.win 2).blk t).view.emb (ix2 p q))
    (fun k => ((cfg0.win 0).blk t).view.emb (ix2 p k)) (fun k => ((cfg0.win 1).blk t).view.emb (ix2 k q)) h0 h1

/-- An entry of the array is in point `t`'s block iff each coordinate is in the block's range on its axis. -/
theorem dense_mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v6).slice (win0_2.rect t)).set ↔ _
  rw [View.set_slice_whole, Rect.mem_set_unit]
  exact Iff.rfl

/-- Every entry is in some point's block: row `n` is in block `n / 4000` (25 blocks of 4000 rows are the 100000
    rows), and the lane axis is whole. -/
theorem dense_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 := ⟨⟨(i 0).val / 4000, by show _ < grid0.N; omega⟩, rfl⟩
  obtain ⟨e0, e1, e2, e3, e4, e5⟩ := dense_idx0 t
  refine ⟨t, flush0_2 t, ?_⟩
  rw [dense_mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- THE ARRAY region 0 leaves: the product of the two arrays it reads, entry by entry. -/
theorem dense0 (c : Dev nD) : (dat0 V c).arrAt 2 cfg0.N = Cert.Gcn.mm (V c main_arg0) (V c main_v4) :=
  (dat0 V c).arrAt_eq_of_cover 2 (Cert.Gcn.mm (V c main_arg0) (V c main_v4)) (fun t _ => dense_flushed0 V c t) dense_cover0

/-! ## Region 2: the blocks as one array -/

/-- The printed index maps over the grid: the row-block windows sit at block `t` on the row axis and block 0 on
    the lane axis, the weights' window at block 0 on both. -/
theorem dense_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 400000 in
/-- What point `t` writes back is block `t` of the product of the whole arrays: row `p` of the block is row
    `4000 t + p` of the array, and the weights' block is the whole of the weights. -/
theorem dense_flushed2 (c : Dev nD) (t : Fin cfg2.N) :
    (dat2 V c).flushed 2 t = ((cfg2.win 2).blk t).view.read (Elt Ideal) (Cert.Gcn.mm (V c main_v48) (V c main_v5)) := by
  show (cfg2.win 2).cut (grid2.coords t) ((dat2 V c).after 2 t) = _
  rw [after2_2]
  unfold out2_2
  rw [View.canon_unit_zero dense_zeros]
  simp only [View.ld_unit_zero (S := S4000x128) dense_zeros, View.ld_unit_zero (S := S128x128) dense_zeros]
  obtain ⟨e0, e1, e2, e3, e4, e5⟩ := dense_idx2 t
  funext y
  obtain ⟨p, q, rfl⟩ : ∃ (p : Fin 4000) (q : Fin 128), y = ix2 p q := ⟨y 0, y 1, ValueIdx.eq_ix2 y⟩
  refine (dense_pay2_apply (iblk2 V c 0 t) (iblk2 V c 1 t) p q).trans ?_
  have h0 : ∀ k : Fin 128, ((cfg2.win 0).blk t).view.emb (ix2 p k) = ix2 ((((cfg2.win 2).blk t).view.emb (ix2 p q)) 0) k := by
    intro k; funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have h1 : ∀ k : Fin 128, ((cfg2.win 1).blk t).view.emb (ix2 k q) = ix2 k ((((cfg2.win 2).blk t).view.emb (ix2 p q)) 1) := by
    intro k; funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact dense_mm_of_reads (V c main_v48) (V c main_v5) (((cfg2.win 2).blk t).view.emb (ix2 p q))
    (fun k => ((cfg2.win 0).blk t).view.emb (ix2 p k)) (fun k => ((cfg2.win 1).blk t).view.emb (ix2 k q)) h0 h1

/-- An entry of the array is in point `t`'s block iff each coordinate is in the block's range on its axis. -/
theorem dense_mem_blk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v49).slice (win2_2.rect t)).set ↔ _
  rw [View.set_slice_whole, Rect.mem_set_unit]
  exact Iff.rfl

/-- Every entry is in some point's block: row `n` is in block `n / 4000` (25 blocks of 4000 rows are the 100000
    rows), and the lane axis is whole. -/
theorem dense_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 25 := N_2
  obtain ⟨t, ht⟩ : ∃ t : Fin cfg2.N, t.val = (i 0).val / 4000 := ⟨⟨(i 0).val / 4000, by show _ < grid2.N; omega⟩, rfl⟩
  obtain ⟨e0, e1, e2, e3, e4, e5⟩ := dense_idx2 t
  refine ⟨t, flush2_2 t, ?_⟩
  rw [dense_mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- THE ARRAY region 2 leaves: the product of the two arrays it reads, entry by entry. -/
theorem dense2 (c : Dev nD) : (dat2 V c).arrAt 2 cfg2.N = Cert.Gcn.mm (V c main_v48) (V c main_v5) :=
  (dat2 V c).arrAt_eq_of_cover 2 (Cert.Gcn.mm (V c main_v48) (V c main_v5)) (fun t _ => dense_flushed2 V c t) dense_cover2

end Cert.KernelIdeal.Regions

end
-- ==== Proof.KCombine.lean ====
/-
  The two combine regions read as whole-array functions.  Each runs over 25 grid points; point `t` stages rows
  `4000 t … 4000 t + 3999` of the aggregate, of `h` and of the self-loop column, and the one bias row, and stores
  `(agg + sc · h) + b` on those rows (the first region also `max · 0`), the column spread along each row and the
  bias down each column.  Every entry of the output array is written by exactly the point its row falls in, and what
  that point writes depends only on the same entry of `agg` and `h`, the row's entry of the column and the
  lane's entry of the bias: so the array after the region is the specification's `combine` of the arrays entered.
-/
import proofs.«102375_j52201032515658_1_alg».proof.Proof.Gen.KernelIdeal.Frame
import proofs.«102375_j52201032515658_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Regions

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem comb_hz : (![0, 0] : Fin 2 → Nat) = fun _ => 0 := funext fun a => by fin_cases a <;> rfl

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The first combine body at an entry: `max ((agg + sc · h) + b) 0`. -/
theorem k1_pay_apply (v0 : Vec Ideal S4000x128 .f32) (v2 : Vec Ideal S4000x1 .f32) (v4 : Vec Ideal S4000x128 .f32) (v9 : Vec Ideal S1x128 .f32)
    (r : Fin 4000) (j : Fin 128) :
    k1_pay1 v0 v2 v4 v9 (ix2 r j)
      = max (v0 (ix2 r j) + v2 (ix2 r (0 : Fin 1)) * v4 (ix2 r j) + v9 (ix2 (0 : Fin 1) j)) (Ideal.ofBits .f32 0x00000000#32) := by
  unfold k1_pay1
  simp only [shapeCast_self]
  show max (v0 (ix2 r j) + broadcastTo S4000x128 v2 Facts₀.broadcasts_S4000x1_S4000x128 (ix2 r j) * v4 (ix2 r j)
      + broadcastTo S4000x128 v9 Facts₀.broadcasts_S1x128_S4000x128 (ix2 r j)) (Ideal.ofBits .f32 0x00000000#32) = _
  rw [broadcastTo_a1_ab_apply, broadcastTo_1b_ab_apply]

/-- The second combine body at an entry: `(agg + sc · h) + b`. -/
theorem k3_pay_apply (v0 : Vec Ideal S4000x128 .f32) (v2 : Vec Ideal S4000x1 .f32) (v4 : Vec Ideal S4000x128 .f32) (v9 : Vec Ideal S1x128 .f32)
    (r : Fin 4000) (j : Fin 128) :
    k3_pay1 v0 v2 v4 v9 (ix2 r j)
      = v0 (ix2 r j) + v2 (ix2 r (0 : Fin 1)) * v4 (ix2 r j) + v9 (ix2 (0 : Fin 1) j) := by
  unfold k3_pay1
  simp only [shapeCast_self]
  show v0 (ix2 r j) + broadcastTo S4000x128 v2 Facts₀.broadcasts_S4000x1_S4000x128 (ix2 r j) * v4 (ix2 r j)
      + broadcastTo S4000x128 v9 Facts₀.broadcasts_S1x128_S4000x128 (ix2 r j) = _
  rw [broadcastTo_a1_ab_apply, broadcastTo_1b_ab_apply]

/-- The layer's last line at an entry `i`, from the four reads wherever their indices were computed. -/
theorem comb_at (A H : FVec Ideal S100000x128 .f32) (SC : FVec Ideal S100000x1 .f32) (B : FVec Ideal S1x128 .f32)
    {i0 i1 i : S100000x128.Idx} {i2 : S100000x1.Idx} {i3 : S1x128.Idx}
    (h0 : i0 = i) (h1 : i1 = i) (h2 : i2 = ix2 (i 0) (0 : Fin 1)) (h3 : i3 = ix2 (0 : Fin 1) (i 1)) :
    A i0 + SC i2 * H i1 + B i3 = combine A H SC (fun j => B (ix2 (0 : Fin 1) (j 0))) i := by
  subst h2 h3 h0 h1; rfl

/-- The same with the activation. -/
theorem comb_relu_at (A H : FVec Ideal S100000x128 .f32) (SC : FVec Ideal S100000x1 .f32) (B : FVec Ideal S1x128 .f32)
    {i0 i1 i : S100000x128.Idx} {i2 : S100000x1.Idx} {i3 : S1x128.Idx}
    (h0 : i0 = i) (h1 : i1 = i) (h2 : i2 = ix2 (i 0) (0 : Fin 1)) (h3 : i3 = ix2 (0 : Fin 1) (i 1)) :
    max (A i0 + SC i2 * H i1 + B i3) (Ideal.ofBits .f32 0x00000000#32)
      = relu (combine A H SC (fun j => B (ix2 (0 : Fin 1) (j 0)))) i := by
  subst h2 h3 h0 h1; rfl

variable (V : (c : Dev nD) → (b : Ref sig .tc) → Buf (Elt Ideal) ((c : Thread nD τ).loc b))

/-! ## Region 1 -/

/-- The index maps of region 1's windows, decided over its 25 grid points: the three row-block windows move with the
    output's, the bias window stays, and the output's block number is the point's. -/
theorem comb1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 2000000 in
/-- What grid point `t` writes back is rows `4000 t … 4000 t + 3999` of the layer's last line applied to the whole arrays. -/
theorem comb1_flushed (c : Dev nD) (t : Fin cfg1.N) :
    (dat1 V c).flushed 4 t = ((cfg1.win 4).blk t).view.read (Elt Ideal) (relu (combine (V c main_v44) (V c main_v6) (V c main_v46) (fun j => V c main_v47 (ix2 (0 : Fin 1) (j 0))))) := by
  show (cfg1.win 4).cut (grid1.coords t) ((dat1 V c).after 4 t) = _
  rw [after1_4]
  unfold out1_4
  rw [View.canon_unit_zero comb_hz]
  simp only [View.ld_unit_zero (S := S4000x128) comb_hz, View.ld_unit_zero (S := S4000x1) comb_hz, View.ld_unit_zero (S := S1x128) comb_hz]
  obtain ⟨e00, e01, e10, e11, e20, e21, e30, e31, e40, e41⟩ := comb1_idx t
  funext y
  obtain ⟨r, j, rfl⟩ : ∃ (r : Fin 4000) (j : Fin 128), y = ix2 r j := ⟨y 0, y 1, eq_ix2 y⟩
  refine (k1_pay_apply _ _ _ _ r j).trans ?_
  have hr : r.val < 4000 := r.isLt
  have hj : j.val < 128 := j.isLt
  have h0 : ((cfg1.win 0).blk t).view.emb (ix2 r j) = ((cfg1.win 4).blk t).view.emb (ix2 r j) := by
    funext a; apply Fin.ext
    match a with
    | ⟨0, _⟩ => show win1_0.index t (0 : Fin 2) * 4000 + 1 * r.val = win1_4.index t (0 : Fin 2) * 4000 + 1 * r.val; omega
    | ⟨1, _⟩ => show win1_0.index t (1 : Fin 2) * 128 + 1 * j.val = win1_4.index t (1 : Fin 2) * 128 + 1 * j.val; omega
  have h1 : ((cfg1.win 1).blk t).view.emb (ix2 r j) = ((cfg1.win 4).blk t).view.emb (ix2 r j) := by
    funext a; apply Fin.ext
    match a with
    | ⟨0, _⟩ => show win1_1.index t (0 : Fin 2) * 4000 + 1 * r.val = win1_4.index t (0 : Fin 2) * 4000 + 1 * r.val; omega
    | ⟨1, _⟩ => show win1_1.index t (1 : Fin 2) * 128 + 1 * j.val = win1_4.index t (1 : Fin 2) * 128 + 1 * j.val; omega
  have h2 : ((cfg1.win 2).blk t).view.emb (ix2 r (0 : Fin 1)) = ix2 ((((cfg1.win 4).blk t).view.emb (ix2 r j)) 0) (0 : Fin 1) := by
    funext a; apply Fin.ext
    match a with
    | ⟨0, _⟩ => show win1_2.index t (0 : Fin 2) * 4000 + 1 * r.val = win1_4.index t (0 : Fin 2) * 4000 + 1 * r.val; omega
    | ⟨1, _⟩ => show win1_2.index t (1 : Fin 2) * 1 + 1 * 0 = 0; omega
  have h3 : ((cfg1.win 3).blk t).view.emb (ix2 (0 : Fin 1) j) = ix2 (0 : Fin 1) ((((cfg1.win 4).blk t).view.emb (ix2 r j)) 1) := by
    funext a; apply Fin.ext
    match a with
    | ⟨0, _⟩ => show win1_3.index t (0 : Fin 2) * 1 + 1 * 0 = 0; omega
    | ⟨1, _⟩ => show win1_3.index t (1 : Fin 2) * 128 + 1 * j.val = win1_4.index t (1 : Fin 2) * 128 + 1 * j.val; omega
  exact comb_relu_at (V c main_v44) (V c main_v6) (V c main_v46) (V c main_v47) h0 h1 h2 h3

/-- An index of the output array is in point `t`'s block iff each coordinate is in the block's range on its axis. -/
theorem comb1_mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v48).slice (win1_4.rect t)).set ↔ _
  rw [View.set_slice_whole, Rect.mem_set_unit]
  exact Iff.rfl

/-- Row `n` of the output is written by point `n / 4000`: the 25 blocks of 4000 rows tile the 100000 rows. -/
theorem comb1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 25 := N_1
  have ht : (i 0).val / 4000 < grid1.N := by rw [hN]; omega
  obtain ⟨e00, e01, e10, e11, e20, e21, e30, e31, e40, e41⟩ := comb1_idx ⟨(i 0).val / 4000, ht⟩
  refine ⟨⟨(i 0).val / 4000, ht⟩, flush1_4 _, ?_⟩
  rw [comb1_mem_blk]
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e40]; show (i 0).val / 4000 * 4000 ≤ (i 0).val ∧ (i 0).val < (i 0).val / 4000 * 4000 + 4000; omega
  | ⟨1, _⟩ =>
    show win1_4.index ⟨(i 0).val / 4000, ht⟩ (1 : Fin 2) * 128 ≤ (i 1).val ∧ (i 1).val < win1_4.index ⟨(i 0).val / 4000, ht⟩ (1 : Fin 2) * 128 + 128
    rw [e41]; omega

/-- After region 1 its output array holds the layer's last line and activation of the arrays the region found. -/
theorem comb1 (c : Dev nD) : (dat1 V c).arrAt 4 cfg1.N = relu (combine (V c main_v44) (V c main_v6) (V c main_v46) (fun j => V c main_v47 (ix2 (0 : Fin 1) (j 0)))) :=
  (dat1 V c).arrAt_eq_of_cover 4 _ (fun t _ => comb1_flushed V c t) comb1_cover

/-! ## Region 3 -/

/-- The index maps of region 3's windows, decided over its 25 grid points: the three row-block windows move with the
    output's, the bias window stays, and the output's block number is the point's. -/
theorem comb3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What grid point `t` writes back is rows `4000 t … 4000 t + 3999` of the layer's last line applied to the whole arrays. -/
theorem comb3_flushed (c : Dev nD) (t : Fin cfg3.N) :
    (dat3 V c).flushed 4 t = ((cfg3.win 4).blk t).view.read (Elt Ideal) (combine (V c main_v87) (V c main_v49) (V c main_v89) (fun j => V c main_v90 (ix2 (0 : Fin 1) (j 0)))) := by
  show (cfg3.win 4).cut (grid3.coords t) ((dat3 V c).after 4 t) = _
  rw [after3_4]
  unfold out3_4
  rw [View.canon_unit_zero comb_hz]
  simp only [View.ld_unit_zero (S := S4000x128) comb_hz, View.ld_unit_zero (S := S4000x1) comb_hz, View.ld_unit_zero (S := S1x128) comb_hz]
  obtain ⟨e00, e01, e10, e11, e20, e21, e30, e31, e40, e41⟩ := comb3_idx t
  funext y
  obtain ⟨r, j, rfl⟩ : ∃ (r : Fin 4000) (j : Fin 128), y = ix2 r j := ⟨y 0, y 1, eq_ix2 y⟩
  refine (k3_pay_apply _ _ _ _ r j).trans ?_
  have hr : r.val < 4000 := r.isLt
  have hj : j.val < 128 := j.isLt
  have h0 : ((cfg3.win 0).blk t).view.emb (ix2 r j) = ((cfg3.win 4).blk t).view.emb (ix2 r j) := by
    funext a; apply Fin.ext
    match a with
    | ⟨0, _⟩ => show win3_0.index t (0 : Fin 2) * 4000 + 1 * r.val = win3_4.index t (0 : Fin 2) * 4000 + 1 * r.val; omega
    | ⟨1, _⟩ => show win3_0.index t (1 : Fin 2) * 128 + 1 * j.val = win3_4.index t (1 : Fin 2) * 128 + 1 * j.val; omega
  have h1 : ((cfg3.win 1).blk t).view.emb (ix2 r j) = ((cfg3.win 4).blk t).view.emb (ix2 r j) := by
    funext a; apply Fin.ext
    match a with
    | ⟨0, _⟩ => show win3_1.index t (0 : Fin 2) * 4000 + 1 * r.val = win3_4.index t (0 : Fin 2) * 4000 + 1 * r.val; omega
    | ⟨1, _⟩ => show win3_1.index t (1 : Fin 2) * 128 + 1 * j.val = win3_4.index t (1 : Fin 2) * 128 + 1 * j.val; omega
  have h2 : ((cfg3.win 2).blk t).view.emb (ix2 r (0 : Fin 1)) = ix2 ((((cfg3.win 4).blk t).view.emb (ix2 r j)) 0) (0 : Fin 1) := by
    funext a; apply Fin.ext
    match a with
    | ⟨0, _⟩ => show win3_2.index t (0 : Fin 2) * 4000 + 1 * r.val = win3_4.index t (0 : Fin 2) * 4000 + 1 * r.val; omega
    | ⟨1, _⟩ => show win3_2.index t (1 : Fin 2) * 1 + 1 * 0 = 0; omega
  have h3 : ((cfg3.win 3).blk t).view.emb (ix2 (0 : Fin 1) j) = ix2 (0 : Fin 1) ((((cfg3.win 4).blk t).view.emb (ix2 r j)) 1) := by
    funext a; apply Fin.ext
    match a with
    | ⟨0, _⟩ => show win3_3.index t (0 : Fin 2) * 1 + 1 * 0 = 0; omega
    | ⟨1, _⟩ => show win3_3.index t (1 : Fin 2) * 128 + 1 * j.val = win3_4.index t (1 : Fin 2) * 128 + 1 * j.val; omega
  exact comb_at (V c main_v87) (V c main_v49) (V c main_v89) (V c main_v90) h0 h1 h2 h3

/-- An index of the output array is in point `t`'s block iff each coordinate is in the block's range on its axis. -/
theorem comb3_mem_blk (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v91).slice (win3_4.rect t)).set ↔ _
  rw [View.set_slice_whole, Rect.mem_set_unit]
  exact Iff.rfl

/-- Row `n` of the output is written by point `n / 4000`: the 25 blocks of 4000 rows tile the 100000 rows. -/
theorem comb3_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 25 := N_3
  have ht : (i 0).val / 4000 < grid3.N := by rw [hN]; omega
  obtain ⟨e00, e01, e10, e11, e20, e21, e30, e31, e40, e41⟩ := comb3_idx ⟨(i 0).val / 4000, ht⟩
  refine ⟨⟨(i 0).val / 4000, ht⟩, flush3_4 _, ?_⟩
  rw [comb3_mem_blk]
  intro a
  match a with
  | ⟨0, _⟩ =>
    show win3_4.index ⟨(i 0).val / 4000, ht⟩ (0 : Fin 2) * 4000 ≤ (i 0).val ∧ (i 0).val < win3_4.index ⟨(i 0).val / 4000, ht⟩ (0 : Fin 2) * 4000 + 4000
    rw [e40]; show (i 0).val / 4000 * 4000 ≤ (i 0).val ∧ (i 0).val < (i 0).val / 4000 * 4000 + 4000; omega
  | ⟨1, _⟩ =>
    show win3_4.index ⟨(i 0).val / 4000, ht⟩ (1 : Fin 2) * 128 ≤ (i 1).val ∧ (i 1).val < win3_4.index ⟨(i 0).val / 4000, ht⟩ (1 : Fin 2) * 128 + 128
    rw [e41]; omega

/-- After region 3 its output array holds the layer's last line of the arrays the region found. -/
theorem comb3 (c : Dev nD) : (dat3 V c).arrAt 4 cfg3.N = combine (V c main_v87) (V c main_v49) (V c main_v89) (fun j => V c main_v90 (ix2 (0 : Fin 1) (j 0))) :=
  (dat3 V c).arrAt_eq_of_cover 4 _ (fun t _ => comb3_flushed V c t) comb3_cover

end Cert.KernelIdeal.Regions

end
-- ==== Proof.RValue.lean ====
/-
  The reference program computes the two-layer graph convolution of the specification.

  Its result is read one operation at a time. The two dense products are the sums over the 128 features
  of the specification's `mm`. The edge-indexed part of each layer (the degrees, their inverse square roots,
  the edge coefficients, the gather of the source rows and the scatter-add onto the target nodes) is the
  same composition of the same operations as the specification's `aggOf` and `selfOf`, whatever a gather or a
  scatter-add computes. The last three operations of a layer (the self loop's
  column spread along a row, the sum with the aggregate, the bias spread down a column) are the
  specification's `combine`, entry by entry, and the maximum with a zero array between the layers is its
  `relu`.
-/
import proofs.«102375_j52201032515658_1_alg».proof.Proof.Gen.KernelIdeal
import proofs.«102375_j52201032515658_1_alg».proof.Proof.Gen.ReferenceIdeal.Read
import proofs.«102375_j52201032515658_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal

variable (x0 : (⟨S100000x128, .f32⟩ : BufTy).Contents (Elt Ideal))
  (x1 : (⟨S2x1600000, .i32⟩ : BufTy).Contents (Elt Ideal))
  (x2 : (⟨S1600000, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))

/-! ## The dense products -/

/-- A dense product of the program, read entry by entry, is the specification's `mm`: the sum over the 128
    features `k` of `x (n, k) · W (k, j)`. -/
theorem sum_eq_mm (x : FVec Ideal S100000x128 .f32) (w : FVec Ideal S128x128 .f32) (i : S100000x128.Idx) :
    (∑ k : Fin 128, x (Read.lidx_main_v4 i k) * w (Read.ridx_main_v4 i k)) = Cert.Gcn.mm x w i := by
  unfold Cert.Gcn.mm
  refine Finset.sum_congr rfl fun k _ => ?_
  have el : Read.lidx_main_v4 i k = ix2 (i 0) k :=
    funext fun a => Fin.ext (by match a with | ⟨0, _⟩ => rfl | ⟨1, _⟩ => rfl)
  have er : Read.ridx_main_v4 i k = ix2 k (i 1) :=
    funext fun a => Fin.ext (by match a with | ⟨0, _⟩ => rfl | ⟨1, _⟩ => rfl)
  rw [el, er]
  rfl

/-- The first layer's product `x · W₁`. -/
theorem v4_eq : Read.val_main_v4 (F := Ideal) x0 x3 = Cert.Gcn.mm x0 x3 := by
  funext i
  rw [Read.val_main_v4_apply]
  exact sum_eq_mm x0 x3 i

/-- The second layer's product: the first layer's activated output times `W₂`. -/
theorem v52_eq : Read.val_main_v52 (F := Ideal) x0 x1 x2 x3 x4 x5
    = Cert.Gcn.mm (Read.val_main_v51 (F := Ideal) x0 x1 x2 x3 x4) x5 := by
  funext i
  rw [Read.val_main_v52_apply]
  exact sum_eq_mm _ x5 i

/-! ## The edge-indexed part -/

/-- Row 0 of the edge table, as the program slices and reshapes it, is the specification's source vector. -/
theorem v1_eq : Read.val_main_v1 (F := Ideal) x1 = Cert.Gcn.srcIdx x1 := rfl

/-- Row 1 of the edge table is the specification's target vector. -/
theorem v3_eq : Read.val_main_v3 (F := Ideal) x1 = Cert.Gcn.dstIdx x1 := rfl

/-- The source nodes as a gather's index table (a negative number counts from the end). -/
theorem v19_eq : Read.val_main_v19 (F := Ideal) x1 = Cert.Gcn.wrapIdx (Cert.Gcn.srcIdx x1) := by
  unfold Read.val_main_v19 Read.val_main_v18 Read.val_main_v15 Read.val_main_v17 Read.val_main_v14
    Read.val_main_v16 Read.val_main_c Read.val_main_c_3 Cert.Gcn.wrapIdx
  rw [v1_eq]

/-- The target nodes as a gather's index table. -/
theorem v27_eq : Read.val_main_v27 (F := Ideal) x1 = Cert.Gcn.wrapIdx (Cert.Gcn.dstIdx x1) := by
  unfold Read.val_main_v27 Read.val_main_v26 Read.val_main_v23 Read.val_main_v25 Read.val_main_v22
    Read.val_main_v24 Read.val_main_c_4 Read.val_main_c_5 Cert.Gcn.wrapIdx
  rw [v3_eq]

/-- The source nodes as the row gather's index table. -/
theorem v36_eq : Read.val_main_v36 (F := Ideal) x1 = Cert.Gcn.wrapIdx (Cert.Gcn.srcIdx x1) := by
  unfold Read.val_main_v36 Read.val_main_v35 Read.val_main_v32 Read.val_main_v34 Read.val_main_v31
    Read.val_main_v33 Read.val_main_c_6 Read.val_main_c_7 Cert.Gcn.wrapIdx
  rw [v1_eq]

/-- The inverse square roots of the weighted in-degrees (with the self loop), 0 where the degree is not positive. -/
theorem v13_eq : Read.val_main_v13 (F := Ideal) x1 x2 = Cert.Gcn.dinvOf (Cert.Gcn.dstIdx x1) x2 := by
  unfold Read.val_main_v13 Read.val_main_v11 Read.val_main_v12 Read.val_main_v9 Read.val_main_v7 Read.val_main_v8
    Read.val_main_v5 Read.val_main_v6 Read.val_main_v10 Read.val_main_cst Read.val_main_cst_0 Read.val_main_cst_1
    Read.val_main_call0_v1 Read.val_main_call0_v0 Read.val_main_cst_2 Cert.Gcn.dinvOf Cert.Gcn.degOf
  rw [v3_eq]
  rfl

/-- The edge coefficients `dinv (row e) · ew e · dinv (col e)`. -/
theorem v29_eq : Read.val_main_v29 (F := Ideal) x1 x2
    = Cert.Gcn.edgeCoef (Cert.Gcn.srcIdx x1) (Cert.Gcn.dstIdx x1) x2 := by
  unfold Read.val_main_v29 Read.val_main_v21 Read.val_main_v28 Read.val_main_v20 Cert.Gcn.edgeCoef
  rw [v13_eq, v19_eq, v27_eq]
  rfl

/-- The first layer's aggregation over the edges of `h = x · W₁`: the same function of `h`, the edges and the
    weights as the specification's. -/
theorem v42_eq : Read.val_main_v42 (F := Ideal) x0 x1 x2 x3
    = Cert.Gcn.aggOf (Read.val_main_v4 (F := Ideal) x0 x3) (Cert.Gcn.srcIdx x1) (Cert.Gcn.dstIdx x1) x2 := by
  unfold Read.val_main_v42 Read.val_main_v40 Read.val_main_v41 Read.val_main_v39 Read.val_main_v38 Read.val_main_v37
    Read.val_main_v30 Read.val_main_cst_8 Cert.Gcn.aggOf
  rw [v29_eq, v36_eq, v3_eq]
  rfl

/-- The first layer's self-loop coefficients `dinv n ²`, as a column. -/
theorem v44_eq : Read.val_main_v44 (F := Ideal) x1 x2 = Cert.Gcn.selfOf (Cert.Gcn.dstIdx x1) x2 := by
  unfold Read.val_main_v44 Read.val_main_v43 Cert.Gcn.selfOf
  rw [v13_eq]

/-- Second layer: the source nodes as a gather's index table. -/
theorem v67_eq : Read.val_main_v67 (F := Ideal) x1 = Cert.Gcn.wrapIdx (Cert.Gcn.srcIdx x1) := by
  unfold Read.val_main_v67 Read.val_main_v66 Read.val_main_v63 Read.val_main_v65 Read.val_main_v62
    Read.val_main_v64 Read.val_main_c_13 Read.val_main_c_14 Cert.Gcn.wrapIdx
  rw [v1_eq]

/-- Second layer: the target nodes as a gather's index table. -/
theorem v75_eq : Read.val_main_v75 (F := Ideal) x1 = Cert.Gcn.wrapIdx (Cert.Gcn.dstIdx x1) := by
  unfold Read.val_main_v75 Read.val_main_v74 Read.val_main_v71 Read.val_main_v73 Read.val_main_v70
    Read.val_main_v72 Read.val_main_c_15 Read.val_main_c_16 Cert.Gcn.wrapIdx
  rw [v3_eq]

/-- Second layer: the source nodes as the row gather's index table. -/
theorem v84_eq : Read.val_main_v84 (F := Ideal) x1 = Cert.Gcn.wrapIdx (Cert.Gcn.srcIdx x1) := by
  unfold Read.val_main_v84 Read.val_main_v83 Read.val_main_v80 Read.val_main_v82 Read.val_main_v79
    Read.val_main_v81 Read.val_main_c_17 Read.val_main_c_18 Cert.Gcn.wrapIdx
  rw [v1_eq]

/-- Second layer: the inverse square roots of the degrees, computed again from the same edges and weights. -/
theorem v61_eq : Read.val_main_v61 (F := Ideal) x1 x2 = Cert.Gcn.dinvOf (Cert.Gcn.dstIdx x1) x2 := by
  unfold Read.val_main_v61 Read.val_main_v59 Read.val_main_v60 Read.val_main_v57 Read.val_main_v55 Read.val_main_v56
    Read.val_main_v53 Read.val_main_v54 Read.val_main_v58 Read.val_main_cst_9 Read.val_main_cst_10 Read.val_main_cst_11
    Read.val_main_call2_v1 Read.val_main_call2_v0 Read.val_main_cst_12 Cert.Gcn.dinvOf Cert.Gcn.degOf
  rw [v3_eq]
  rfl

/-- Second layer: the edge coefficients. -/
theorem v77_eq : Read.val_main_v77 (F := Ideal) x1 x2
    = Cert.Gcn.edgeCoef (Cert.Gcn.srcIdx x1) (Cert.Gcn.dstIdx x1) x2 := by
  unfold Read.val_main_v77 Read.val_main_v69 Read.val_main_v76 Read.val_main_v68 Cert.Gcn.edgeCoef
  rw [v61_eq, v67_eq, v75_eq]
  rfl

/-- The second layer's aggregation over the edges of its dense product `h`: the same function of `h`, the edges
    and the weights as the specification's. -/
theorem v90_eq : Read.val_main_v90 (F := Ideal) x0 x1 x2 x3 x4 x5
    = Cert.Gcn.aggOf (Read.val_main_v52 (F := Ideal) x0 x1 x2 x3 x4 x5) (Cert.Gcn.srcIdx x1) (Cert.Gcn.dstIdx x1) x2 := by
  unfold Read.val_main_v90 Read.val_main_v88 Read.val_main_v89 Read.val_main_v87 Read.val_main_v86 Read.val_main_v85
    Read.val_main_v78 Read.val_main_cst_19 Cert.Gcn.aggOf
  rw [v77_eq, v84_eq, v3_eq]
  rfl

/-- The second layer's self-loop coefficients `dinv n ²`, as a column. -/
theorem v92_eq : Read.val_main_v92 (F := Ideal) x1 x2 = Cert.Gcn.selfOf (Cert.Gcn.dstIdx x1) x2 := by
  unfold Read.val_main_v92 Read.val_main_v91 Cert.Gcn.selfOf
  rw [v61_eq]

/-! ## The last operations of a layer, entry by entry -/

/-- The sum of the aggregate, the self loop's column spread along a row times `h`, and the bias spread down a
    column is the specification's `combine` at every entry. -/
theorem combine_apply (agg h : FVec Ideal S100000x128 .f32) (sc : FVec Ideal S100000x1 .f32) (b : FVec Ideal S128 .f32)
    (i : S100000x128.Idx) :
    FloatOps.addf (FloatOps.addf (agg i) (FloatOps.mulf (sc (Read.idx_main_v45 i)) (h i)))
        (b (Read.idx_main_v48 (Read.idx_main_v49 i)))
      = Cert.Gcn.combine agg h sc b i := by
  have e1 : Read.idx_main_v45 i = ix2 (i 0) (0 : Fin 1) :=
    funext fun a => Fin.ext (by match a with | ⟨0, _⟩ => rfl | ⟨1, _⟩ => rfl)
  have e2 : Read.idx_main_v48 (Read.idx_main_v49 i) = ix1 (i 1) :=
    funext fun a => Fin.ext (by match a with | ⟨0, _⟩ => rfl)
  rw [e1, e2]
  rfl

/-- The first layer before its activation. -/
theorem v50_eq : Read.val_main_v50 (F := Ideal) x0 x1 x2 x3 x4
    = Cert.Gcn.combine (Read.val_main_v42 (F := Ideal) x0 x1 x2 x3) (Read.val_main_v4 (F := Ideal) x0 x3)
        (Read.val_main_v44 (F := Ideal) x1 x2) x4 := by
  funext i
  rw [Read.val_main_v50_apply, Read.val_main_v47_apply, Read.val_main_v46_apply, Read.val_main_v45_apply,
    Read.val_main_v49_apply, Read.val_main_v48_apply]
  exact combine_apply _ _ _ x4 i

/-- The second layer, the network's output. -/
theorem v98_eq : Read.val_main_v98 (F := Ideal) x0 x1 x2 x3 x4 x5 x6
    = Cert.Gcn.combine (Read.val_main_v90 (F := Ideal) x0 x1 x2 x3 x4 x5) (Read.val_main_v52 (F := Ideal) x0 x1 x2 x3 x4 x5)
        (Read.val_main_v92 (F := Ideal) x1 x2) x6 := by
  funext i
  rw [Read.val_main_v98_apply, Read.val_main_v95_apply, Read.val_main_v94_apply, Read.val_main_v93_apply,
    Read.val_main_v97_apply, Read.val_main_v96_apply]
  exact combine_apply _ _ _ x6 i

/-- The activation between the layers: the maximum with a zero array is `max · 0` entry by entry. -/
theorem v51_eq : Read.val_main_v51 (F := Ideal) x0 x1 x2 x3 x4
    = Cert.Gcn.relu (Read.val_main_v50 (F := Ideal) x0 x1 x2 x3 x4) := by
  funext i
  rw [Read.val_main_v51_apply, Read.val_main_call1_v0_apply, Read.val_main_call1_cst_apply]
  rfl

/-! ## The whole network -/

/-- The program's last value, as a function of its seven arguments, is the specification's network. -/
theorem val_eq : Read.val_main_v98 (F := Ideal) x0 x1 x2 x3 x4 x5 x6 = Cert.Gcn.gcn x0 x1 x2 x3 x4 x5 x6 := by
  unfold Cert.Gcn.gcn Cert.Gcn.layer
  rw [v98_eq, v90_eq, v92_eq, v52_eq, v51_eq, v50_eq, v42_eq, v44_eq, v4_eq]

/-- The reference program's result is the two-layer graph convolution of its arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v98 (F := Ideal) m c
      = Cert.Gcn.gcn (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3))
          (m ((c.tc : Thread _ _).loc Cert.ReferenceIdeal.main_arg4))
          (m ((c.tc : Thread _ _).loc Cert.ReferenceIdeal.main_arg5))
          (m ((c.tc : Thread _ _).loc Cert.ReferenceIdeal.main_arg6)) := by
  rw [Read.val_main_v98_eq]
  exact val_eq _ _ _ _ _ _ _

end Cert.ReferenceIdeal.RefValue

end
-- ==== Proof.lean ====
/-
  The certificate of the two-layer graph convolution kernel against its jnp reference.

  Both programs compute, on 100000 nodes with 128 features and 1600000 weighted edges, two layers of
  `out = (agg + dinv² · h) + b` with `h = x · W`, `agg` the degree-normalised sum of the source rows of `h` over the
  arriving edges, and `max · 0` between the layers (Proof/Spec.lean).  The kernel forms `h` and the last line in
  pipelined regions over row blocks of 4000 nodes, with the edge-indexed part as host operations between them; the
  reference forms everything as whole-array host operations.  On the extended reals the two are the same function
  of the arguments, entry by entry: a blocked dense product is the whole product's rows, the rounding of the matrix
  operands to bf16 is the identity, the keepdims broadcasts read the same entries wherever they sit, and the
  edge-indexed part is the same composition of the same operations of equal operands.  No algebraic law beyond
  these readings is needed, so the precondition (finite inputs) is never opened.

  The three frames are the generated ones (the reference's is its generated run with the result dropped); the
  idealization rewrote nothing, so `preserves` is trivial; `algebraic` pairs the kernel's run, its result buffer
  read at the last boundary of the run (Proof/KRun.lean, Proof/KHost.lean, Proof/KDense.lean, Proof/KCombine.lean, Proof/KValue.lean),
  with the reference's run read one operation at a time (Proof/RValue.lean).
-/
import proofs.«102375_j52201032515658_1_alg».proof.Defs
import proofs.«102375_j52201032515658_1_alg».proof.Proof.Gen.Kernel
import proofs.«102375_j52201032515658_1_alg».proof.Proof.Gen.Kernel.Frame
import proofs.«102375_j52201032515658_1_alg».proof.Proof.Gen.KernelIdeal
import proofs.«102375_j52201032515658_1_alg».proof.Proof.Gen.KernelIdeal.Frame
import proofs.«102375_j52201032515658_1_alg».proof.Proof.Gen.ReferenceIdeal
import proofs.«102375_j52201032515658_1_alg».proof.Proof.Gen.ReferenceIdeal.Run
import proofs.«102375_j52201032515658_1_alg».proof.Proof.Gen.ReferenceIdeal.Read
import proofs.«102375_j52201032515658_1_alg».proof.Proof.Gen.Pre_finite_inputs
import proofs.«102375_j52201032515658_1_alg».proof.Proof.KRun
import proofs.«102375_j52201032515658_1_alg».proof.Proof.KValue
import proofs.«102375_j52201032515658_1_alg».proof.Proof.KDense
import proofs.«102375_j52201032515658_1_alg».proof.Proof.KCombine
import proofs.«102375_j52201032515658_1_alg».proof.Proof.RValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The kernel's result buffer after its run holds the network of the specification applied to the arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v91)
      = Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) :=
  Cert.KernelIdeal.Value.result_of m ρ c Cert.KernelIdeal.Regions.dense0 Cert.KernelIdeal.Regions.comb1
    Cert.KernelIdeal.Regions.dense2 Cert.KernelIdeal.Regions.comb3

/-- From memories agreeing on the arguments both idealized programs end with the specification's network of those
    arguments in their result buffers: the kernel's run read at its last boundary, the reference's run read one
    operation at a time. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c => ⟨(h c).1.trans (kernel_result m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
